-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S8192x1024 .f32) (main_arg1 : FVec F S1024x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x2048.size a
  hwx0_1 : ∀ i : grid0.Coords, EltTy.bits .f32 = 32 ∨ (Rect.block (s := S1024x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x2048.size a
  hwx0_2 : ∀ i : grid0.Coords, EltTy.bits .f32 = 32 ∨ (Rect.block (s := S8192x2048) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1024x2048, .f32⟩
  | .hbm, ⟨7, _⟩ => ⟨S_, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S1024x2048_S2048_d0 : S1024x2048.ReducesTo [0] S2048
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x1024_S1024x2048_S8192x2048_1_0_0_1_n_n_wf : DotDims.WF S8192x1024 S1024x2048 S8192x2048 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf

class Facts : Prop extends Facts₀ where

variable [Facts]
-- ==== Proof.Spec.lean ====
/-
  The prototype score as one function of the two argument arrays.

  For a batch row `r` and a prototype column `c`,
    score r c = 2 · (∑ₖ x[r,k] · w[k,c]) − (∑ₖ x[r,k]²) − (∑ₖ w[k,c]²),
  which is −‖x_r − w_c‖² written out.  Both programs compute exactly this expression, with the same grouping of the
  two subtractions, so no law of the extended reals beyond reading each operation at an index is needed; in
  particular nothing here asks the inputs to be finite.

  `scoreAt` is stated for any extents so that the same expression serves a block (1024 × 1024 × 1024) and the whole
  arrays (8192 × 1024 × 2048); `scoreAt_block` says a block's score is the whole array's score at the block's
  position, once the block's row of `x` and column of `w` are the whole arrays' row and column.
-/
import Idealize.ShloMosaic.PureOps.Ideal
import Idealize.ShloMosaic.Lib.ValueIdx

noncomputable section

open scoped BigOperators
open Idealize.ShloMosaic Idealize.ShloMosaic.ValueIdx

namespace Cert.ProtoScore

/-- The score at row `r`, column `c`: twice the inner product of row `r` of `x` with column `c` of `w`, minus the
    row's sum of squares, minus the column's sum of squares (in that order). The factor two is the f32 word of 2.0. -/
def scoreAt (M K N : Nat) (x : (⟨2, ![M, K]⟩ : Shape).Idx → EReal) (w : (⟨2, ![K, N]⟩ : Shape).Idx → EReal)
    (r : Fin M) (c : Fin N) : EReal :=
  Ideal.ofBits .f32 0x40000000#32 * (∑ k : Fin K, x (ix2 r k) * w (ix2 k c))
    - (∑ k : Fin K, x (ix2 r k) * x (ix2 r k)) - (∑ k : Fin K, w (ix2 k c) * w (ix2 k c))

/-- The whole result array: the score of every (batch row, prototype column) pair. -/
def score (x : (⟨2, ![8192, 1024]⟩ : Shape).Idx → EReal) (w : (⟨2, ![1024, 2048]⟩ : Shape).Idx → EReal) :
    (⟨2, ![8192, 2048]⟩ : Shape).Idx → EReal :=
  fun i => scoreAt 8192 1024 2048 x w (i 0) (i 1)

/-- A block's score at its local position `(p, q)` is the whole arrays' score at `(r, c)` when row `p` of the
    block of `x` is row `r` of `x` and column `q` of the block of `w` is column `c` of `w`: the three sums agree
    term by term. -/
theorem scoreAt_block (X : (⟨2, ![8192, 1024]⟩ : Shape).Idx → EReal) (W : (⟨2, ![1024, 2048]⟩ : Shape).Idx → EReal)
    (x0 : (⟨2, ![1024, 1024]⟩ : Shape).Idx → EReal) (x1 : (⟨2, ![1024, 1024]⟩ : Shape).Idx → EReal)
    (r : Fin 8192) (c : Fin 2048) (p q : Fin 1024)
    (hx : ∀ k : Fin 1024, x0 (ix2 p k) = X (ix2 r k)) (hw : ∀ k : Fin 1024, x1 (ix2 k q) = W (ix2 k c)) :
    scoreAt 1024 1024 1024 x0 x1 p q = scoreAt 8192 1024 2048 X W r c := by
  unfold scoreAt
  simp only [hx, hw]

end Cert.ProtoScore

end
-- ==== Proof.BlockScore.lean ====
/-
  What the kernel body computes from one pair of blocks.

  The body loads a [1024, 1024] block `x0` of `x` and a [1024, 1024] block `x1` of the prototypes and stores
    2 · (x0 · x1) − rowsums(x0²) − colsums(x1²),
  the matrix product taken into a zero accumulator (the change of format on its way in is the identity on the
  extended reals), the row sums kept as a [1024, 1] column and spread over the columns, the column sums kept as a
  [1, 1024] row and spread over the rows. Read at the block position `(p, q)` this is the score of the two blocks
  there (`ProtoScore.scoreAt` at extents 1024 × 1024 × 1024):
  * the product at `(p, q)` is the sum over the one contracted coordinate `k` of `x0[p,k] · x1[k,q]`;
  * the column of row sums, spread, reads at `(p, q)` the sum over `k` of its operand at `(p, k)`;
  * the row of column sums, spread, reads at `(p, q)` the sum over `k` of its operand at `(k, q)`.
-/
import proofs.«169630_j15659450761902_1_alg».proof.Proof.Gen.KernelIdeal.Skeleton
import proofs.«169630_j15659450761902_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Score

open Cert.KernelIdeal Cert.KernelIdeal.Gen Cert.ProtoScore

/-- The body's matrix product: rows × contraction times contraction × columns, one contracted axis of extent 1024. -/
abbrev D : DotDims S1024x1024 S1024x1024 S1024x1024 := dot_S1024x1024_S1024x1024_S1024x1024_1_0_0_1_n_n

/-! ## The product's operand indices -/

theorem lhs_row (i : S1024x1024.Idx) (k : D.contr.Idx) : (D.lhsIdx i k 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_contr (i : S1024x1024.Idx) (k : D.contr.Idx) : (D.lhsIdx i k 1).val = (k ⟨0, by decide⟩).val :=
  D.lhsIdx_val_of_single rfl i k
theorem rhs_contr (i : S1024x1024.Idx) (k : D.contr.Idx) : (D.rhsIdx i k 0).val = (k ⟨0, by decide⟩).val :=
  D.rhsIdx_val_of_single rfl i k
theorem rhs_col (i : S1024x1024.Idx) (k : D.contr.Idx) : (D.rhsIdx i k 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-! ## The three non-pointwise pieces, read at a position -/

/-- The product into the zero accumulator, at `(p, q)`: the sum over `k` of `a[p,k] · b[k,q]`. -/
theorem matmul_at (a b : FVec Ideal S1024x1024 .bf16) (p q : Fin 1024) :
    matmul D none a b (constant (F := Ideal) S1024x1024 .f32 0x00000000#32) (ix2 p q)
      = ∑ k : Fin 1024, a (ix2 p k) * b (ix2 k q) := by
  refine (Ideal.matmul_constant_zero_apply D none a b (ix2 p q)).trans ?_
  rw [← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun c => Fin.ext (by
    match c with
    | ⟨0, _⟩ => exact lhs_row _ _
    | ⟨1, _⟩ => exact (lhs_contr _ _).trans hk)
  have er : D.rhsIdx (ix2 p q) ((contrEquiv1 D 1024 rfl rfl).symm k) = ix2 k q := funext fun c => Fin.ext (by
    match c with
    | ⟨0, _⟩ => exact (rhs_contr _ _).trans hk
    | ⟨1, _⟩ => exact rhs_col _ _)
  rw [el, er]

/-- The sums along a row, kept as a column and spread over the columns: at `(p, q)` the sum over `k` of the operand at `(p, k)`. -/
theorem rowsum_at (v : FVec Ideal S1024x1024 .f32) (h : S1024x1024.Reduces [1] S1024) (hφ : FKind.Formats .f32)
    (hacc : (0x00000000#32 : BitVec 32) = FKind.add.neutral .f32 hφ) (hc : S1024.ShapeCasts S1024x1)
    (hb : S1024x1.Broadcasts S1024x1024) (p q : Fin 1024) :
    broadcastTo S1024x1024 (shapeCast S1024x1 (multiReduction (F := Ideal) .add [1] S1024 v 0x00000000#32 h hφ hacc) hc) hb (ix2 p q)
      = ∑ k : Fin 1024, v (ix2 p k) := by
  refine (broadcastTo_apply _ hb (ix2 p q) (ix2 p (0 : Fin 1)) ?_).trans ?_
  · intro a
    match a with
    | ⟨0, _⟩ => show p.val = if (1024 : Nat) = 1 then 0 else p.val; rw [if_neg (by decide)]
    | ⟨1, _⟩ => show 0 = if (1 : Nat) = 1 then 0 else q.val; rw [if_pos rfl]
  refine (shapeCast_apply _ hc (ix2 p (0 : Fin 1)) (ix1 p) ?_).trans ?_
  · rw [Shape.rowMajor_val_one, Shape.rowMajor_val_two]; show p.val = p.val * 1 + 0; omega
  refine (Ideal.multiReduction_add_single v _ h hφ hacc (ix1 p)).trans ?_
  refine Finset.sum_congr rfl fun k _ => congrArg v ?_
  funext a; apply Fin.ext
  match a with
  | ⟨0, _⟩ => rfl
  | ⟨1, _⟩ => rfl

/-- The sums down a column, kept as a row and spread over the rows: at `(p, q)` the sum over `k` of the operand at `(k, q)`. -/
theorem colsum_at (v : FVec Ideal S1024x1024 .f32) (h : S1024x1024.Reduces [0] S1024) (hφ : FKind.Formats .f32)
    (hacc : (0x00000000#32 : BitVec 32) = FKind.add.neutral .f32 hφ) (hc : S1024.ShapeCasts S1x1024)
    (hb : S1x1024.Broadcasts S1024x1024) (p q : Fin 1024) :
    broadcastTo S1024x1024 (shapeCast S1x1024 (multiReduction (F := Ideal) .add [0] S1024 v 0x00000000#32 h hφ hacc) hc) hb (ix2 p q)
      = ∑ k : Fin 1024, v (ix2 k q) := by
  refine (broadcastTo_apply _ hb (ix2 p q) (ix2 (0 : Fin 1) q) ?_).trans ?_
  · intro a
    match a with
    | ⟨0, _⟩ => show 0 = if (1 : Nat) = 1 then 0 else p.val; rw [if_pos rfl]
    | ⟨1, _⟩ => show q.val = if (1024 : Nat) = 1 then 0 else q.val; rw [if_neg (by decide)]
  refine (shapeCast_apply _ hc (ix2 (0 : Fin 1) q) (ix1 q) ?_).trans ?_
  · rw [Shape.rowMajor_val_one, Shape.rowMajor_val_two]; show q.val = 0 * 1024 + q.val; omega
  refine (Ideal.multiReduction_add_single v _ h hφ hacc (ix1 q)).trans ?_
  refine Finset.sum_congr rfl fun k _ => congrArg v ?_
  funext a; apply Fin.ext
  match a with
  | ⟨0, _⟩ => rfl
  | ⟨1, _⟩ => rfl

/-! ## The body's stored value at a position -/

/-- What the body stores at block position `(p, q)` is the score of its two loaded blocks there. -/
theorem pay_at (x0 x1 : Vec Ideal S1024x1024 .f32) (p q : Fin 1024) :
    k0_pay1 (F := Ideal) x0 x1 (ix2 p q) = scoreAt 1024 1024 1024 x0 x1 p q := by
  unfold k0_pay1 scoreAt
  exact congrArg₂ (· - ·) (congrArg₂ (· - ·) (congrArg (_ * ·) (matmul_at _ _ p q)) (rowsum_at _ _ _ _ _ _ p q))
    (colsum_at _ _ _ _ _ _ p q)

end Cert.KernelIdeal.Score

end
-- ==== Proof.KernelScore.lean ====
/-
  From blocks to the array: after the kernel's run the result array holds the score of the two argument arrays.

  The grid has 8 × 2 points. At the point whose output block sits at block position `(a, b)` the kernel reads rows
  `1024·a … 1024·a + 1023` of `x` (all 1024 columns) and columns `1024·b … 1024·b + 1023` of the prototypes (all 1024
  rows), and writes back the [1024, 1024] block of the result at rows `1024·a + ·`, columns `1024·b + ·`. So the
  value written at block position `(p, q)` — the score of the two loaded blocks there — is the score of the whole
  arrays at `(1024·a + p, 1024·b + q)`: the loaded row of `x` is that row of `x`, the loaded column of the prototypes
  is that column. The sixteen output blocks tile the [8192, 2048] result (row `r`, column `c` lies in the block
  at `(r / 1024, c / 1024)`), so the whole array ends as `ProtoScore.score`.
-/
import proofs.«169630_j15659450761902_1_alg».proof.Proof.Gen.KernelIdeal.Value
import proofs.«169630_j15659450761902_1_alg».proof.Proof.BlockScore

noncomputable section

open scoped BigOperators
open Idealize.ShloMosaic Idealize.ShloMosaic.TcCoe Idealize.ShloMosaic.ValueIdx Idealize.SL.Sem
open Idealize.ShloMosaic.Pipeline (Dat)

namespace Cert.KernelIdeal.Score

open Cert.KernelIdeal Cert.KernelIdeal.Gen Cert.KernelIdeal.Value Cert.ProtoScore

variable (m : (ℓ : Loc nD τ sig) → Buf (Elt Ideal) ℓ) (ρ : Dev nD → PrngReg)

theorem zero_off : (![0, 0] : Fin 2 → Nat) = fun _ => 0 := funext fun a => by fin_cases a <;> rfl

/-! ## Where each window's block sits, over the sixteen grid points -/

/-- The block of `x` shares the output block's row position and starts at column 0; the block of the prototypes starts
    at row 0 and shares the output block's column position. -/
theorem block_positions : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block position of the 8 × 2 tiling of the result is some grid point's. -/
theorem every_block : ∀ (a : Fin 8) (b : Fin 2), ∃ t : Fin cfg0.N, win0_2.index t = ![a.val, b.val] :=
  (by decide +kernel : ∀ (a : Fin 8) (b : Fin 2), ∃ t : Fin grid0.N, win0_2.index t = ![a.val, b.val])

/-! ## The input blocks as rows and columns of the argument arrays -/

/-- Row `p` of the block of `x` at point `t` is row `r` of `x`, for `r` the output block's row position times 1024 plus `p`. -/
theorem xblock_at (c : Dev nD) (t : Fin cfg0.N) (p k : Fin 1024) (r : Fin 8192)
    (hr : r.val = win0_2.index t (0 : Fin 2) * 1024 + 1 * p.val) :
    (iblk m c 0 t : Vec Ideal S1024x1024 .f32) (ix2 p k) = (V m c main_arg0 : S8192x1024.Idx → EReal) (ix2 r k) := by
  obtain ⟨e0, e1, -, -⟩ := block_positions t
  unfold iblk
  rw [View.read_apply]
  show V m c main_arg0 _ = V m c main_arg0 _
  refine congrArg (V m c main_arg0) ?_
  funext a; apply Fin.ext
  match a with
  | ⟨0, _⟩ => show win0_0.index t (0 : Fin 2) * 1024 + 1 * p.val = r.val; rw [e0, hr]
  | ⟨1, _⟩ => show win0_0.index t (1 : Fin 2) * 1024 + 1 * k.val = k.val; rw [e1]; omega

/-- Column `q` of the block of the prototypes at point `t` is column `s` of the prototypes, for `s` the output block's
    column position times 1024 plus `q`. -/
theorem wblock_at (c : Dev nD) (t : Fin cfg0.N) (k q : Fin 1024) (s : Fin 2048)
    (hs : s.val = win0_2.index t (1 : Fin 2) * 1024 + 1 * q.val) :
    (iblk m c 1 t : Vec Ideal S1024x1024 .f32) (ix2 k q) = (V m c main_arg1 : S1024x2048.Idx → EReal) (ix2 k s) := by
  obtain ⟨-, -, e2, e3⟩ := block_positions t
  unfold iblk
  rw [View.read_apply]
  show V m c main_arg1 _ = V m c main_arg1 _
  refine congrArg (V m c main_arg1) ?_
  funext a; apply Fin.ext
  match a with
  | ⟨0, _⟩ => show win0_1.index t (0 : Fin 2) * 1024 + 1 * k.val = k.val; rw [e2]; omega
  | ⟨1, _⟩ => show win0_1.index t (1 : Fin 2) * 1024 + 1 * q.val = s.val; rw [e3, hs]

/-! ## What a point writes back -/

/-- The value the body stores at block position `y` is the whole arrays' score at the index `i` that `y` has in the
    result array. -/
theorem stored_at (c : Dev nD) (t : Fin cfg0.N) (y : S1024x1024.Idx) (i : S8192x2048.Idx)
    (h0 : (i 0).val = win0_2.index t (0 : Fin 2) * 1024 + 1 * (y 0).val)
    (h1 : (i 1).val = win0_2.index t (1 : Fin 2) * 1024 + 1 * (y 1).val) :
    k0_pay1 (F := Ideal) (iblk m c 0 t) (iblk m c 1 t) y = score (V m c main_arg0) (V m c main_arg1) i := by
  obtain ⟨p, q, rfl⟩ : ∃ (p q : Fin 1024), y = ix2 p q := ⟨y 0, y 1, eq_ix2 y⟩
  refine (pay_at (iblk m c 0 t) (iblk m c 1 t) p q).trans ?_
  unfold score
  exact scoreAt_block _ _ _ _ (i 0) (i 1) p q (fun k => xblock_at m c t p k (i 0) h0) (fun k => wblock_at m c t k q (i 1) h1)

/-- What point `t` writes back is block `t` of the score of the argument arrays. -/
theorem flushed_eq (c : Dev nD) (t : Fin cfg0.N) :
    (dats m 0 c).flushed 2 t = ((cfg0.win 2).blk t).view.read (Elt Ideal) (score (V m c main_arg0) (V m c main_arg1)) := by
  rw [Value.flushed2]
  unfold out0_2
  rw [View.canon_unit_zero zero_off]
  simp only [View.ld_unit_zero (S := S1024x1024) zero_off]
  funext y
  exact stored_at m c t y (((cfg0.win 2).blk t).view.emb y) rfl rfl

/-! ## The blocks tile the result -/

/-- An index of the result is in point `t`'s block iff each coordinate is in the block's range on its axis. -/
theorem mem_block (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result is in the block of the point at block position (row / 1024, column / 1024). -/
theorem covered (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := every_block ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-! ## The array after the run, and the run -/

/-- After the last point the result array is the score of the argument arrays as launched. -/
theorem final (c : Dev nD) :
    (dats m 0 c).arrAt 2 cfg0.N = score (m ((c : Thread nD τ).loc main_arg0)) (m ((c : Thread nD τ).loc main_arg1)) :=
  (dats m 0 c).arrAt_eq_of_cover 2 (score (V m c main_arg0) (V m c main_arg1)) (fun t _ => flushed_eq m c t) covered

/-- Every weakly fair execution of the idealized kernel terminates with the result array at the score of the
    arguments and the arguments unchanged. -/
theorem run : θ_run defs (onTc (τ := τ) (main (F := Ideal))) ⟨m, fun _ => 0, ρ⟩ fun r => ∀ c : Dev nD,
      r.2.mem ((c : Thread nD τ).loc main_v0) = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Score

end
-- ==== Proof.RefScore.lean ====
/-
  The reference computes the score.

  Read one operation at a time, the reference's result at an index `i = (r, c)` is
    (2 · (x · w)[r,c] − (0 + ∑ₖ x[r,k]²)) − (0 + ∑ₖ w[k,c]²),
  where the product is the host's matrix product (a sum over the contracted axis), each sum of squares is a host
  reduction started from the f32 zero, and the broadcasts only re-address: the row sums are carried to every column
  through a [8192, 1] column, the column sums to every row through a [1, 2048] row. Dropping the two zeros gives
  `ProtoScore.score`.
-/
import proofs.«169630_j15659450761902_1_alg».proof.Proof.Gen.ReferenceIdeal.Read
import proofs.«169630_j15659450761902_1_alg».proof.Proof.Spec

noncomputable section

open scoped BigOperators
open Idealize.ShloMosaic Idealize.ShloMosaic.ValueIdx

namespace Cert.ReferenceIdeal.Score

open Cert.ReferenceIdeal Cert.ReferenceIdeal.Read Cert.ProtoScore

/-- The matrix product's left operand is read at (row of the result, contracted coordinate). -/
theorem lidx_eq (i : S8192x2048.Idx) (k : Fin 1024) : lidx_main_v5 i k = ix2 (i 0) k :=
  funext fun a => Fin.ext (by match a with | ⟨0, _⟩ => rfl | ⟨1, _⟩ => rfl)

/-- Its right operand at (contracted coordinate, column of the result). -/
theorem ridx_eq (i : S8192x2048.Idx) (k : Fin 1024) : ridx_main_v5 i k = ix2 k (i 1) :=
  funext fun a => Fin.ext (by match a with | ⟨0, _⟩ => rfl | ⟨1, _⟩ => rfl)

/-- The row sum broadcast to the result's index `i` adds up row `i 0` of the squares. -/
theorem rowidx_eq (i : S8192x2048.Idx) (k : Fin 1024) : idx_main_v1 (idx_main_v2 (idx_main_v8 i)) k = ix2 (i 0) k :=
  funext fun a => Fin.ext (by match a with | ⟨0, _⟩ => rfl | ⟨1, _⟩ => rfl)

/-- The column sum broadcast to the result's index `i` adds up column `i 1` of the squares. -/
theorem colidx_eq (i : S8192x2048.Idx) (k : Fin 1024) : idx_main_v4 (idx_main_v10 (idx_main_v11 i)) k = ix2 k (i 1) :=
  funext fun a => Fin.ext (by match a with | ⟨0, _⟩ => rfl | ⟨1, _⟩ => rfl)

/-- The reference's last stage is the score of its two arguments. -/
theorem result_eq (X : (⟨S8192x1024, .f32⟩ : BufTy).Contents (Elt Ideal)) (W : (⟨S1024x2048, .f32⟩ : BufTy).Contents (Elt Ideal)) :
    val_main_v12 (F := Ideal) X W = score X W := by
  funext i
  rw [val_main_v12_apply, val_main_v9_apply, val_main_v7_apply, val_main_v6_apply, val_main_cst_1_apply,
    val_main_v5_apply, val_main_v8_apply, val_main_v2_apply, val_main_v1_apply, val_main_cst_apply,
    val_main_v11_apply, val_main_v10_apply, val_main_v4_apply, val_main_cst_0_apply]
  simp only [val_main_v0_apply, val_main_v3_apply, lidx_eq, ridx_eq, rowidx_eq, colidx_eq,
    Ideal.ofBits_def, Ideal.mulf_def, Ideal.subf_def, Ideal.ofBits_zero_f32, zero_add]
  rfl

end Cert.ReferenceIdeal.Score

end
-- ==== Proof.lean ====
/-
  The kernel and its reference compute the same prototype score,
    score[r, c] = 2 · (∑ₖ x[r,k] · w[k,c]) − (∑ₖ x[r,k]²) − (∑ₖ w[k,c]²)   (= −‖x_r − w_c‖², written out),
  for x : [8192, 1024] and prototypes w : [1024, 2048], as extended reals.

  The kernel tiles the result into 8 × 2 blocks of [1024, 1024]; for each it loads 1024 full rows of x and 1024 full
  columns of w, multiplies them (the narrowing of the operands on the way into the product is the identity on the
  extended reals, and the product is accumulated from zero), subtracts the rows' sums of squares and then the
  columns' sums of squares. The reference does the same three sums on the whole arrays and the same two
  subtractions in the same order. Read at an index both are the one expression above (`ProtoScore.score`):
  * Proof/Spec.lean        the expression, for a block and for the whole arrays, and that a block's value is the
                           whole arrays' value at the block's place;
  * Proof/RefScore.lean    the reference's operations, read one at a time at an index, give the expression;
  * Proof/BlockScore.lean  the kernel body's stored value, read at a block position, is the expression of its two
                           loaded blocks;
  * Proof/KernelScore.lean the blocks are rows of x and columns of w, the sixteen output blocks tile the result,
                           so the kernel's result array is the expression of the argument arrays.
  No law of the extended reals is used beyond reading each operation at an index, so finiteness of the inputs is
  never opened. Read on the extended reals the kernel's text is its own text (no operation was rewritten), so there
  is nothing to preserve; the three programs' runs (termination, no fault, arguments unchanged) are the generated frame runs.
-/
import proofs.«169630_j15659450761902_1_alg».proof.Defs
import proofs.«169630_j15659450761902_1_alg».proof.Proof.Gen.Kernel
import proofs.«169630_j15659450761902_1_alg».proof.Proof.Gen.Kernel.Skeleton
import proofs.«169630_j15659450761902_1_alg».proof.Proof.Gen.Kernel.Launch
import proofs.«169630_j15659450761902_1_alg».proof.Proof.Gen.Kernel.Points
import proofs.«169630_j15659450761902_1_alg».proof.Proof.Gen.Kernel.Frame
import proofs.«169630_j15659450761902_1_alg».proof.Proof.Gen.KernelIdeal
import proofs.«169630_j15659450761902_1_alg».proof.Proof.Gen.KernelIdeal.Skeleton
import proofs.«169630_j15659450761902_1_alg».proof.Proof.Gen.KernelIdeal.Launch
import proofs.«169630_j15659450761902_1_alg».proof.Proof.Gen.KernelIdeal.Points
import proofs.«169630_j15659450761902_1_alg».proof.Proof.Gen.KernelIdeal.Frame
import proofs.«169630_j15659450761902_1_alg».proof.Proof.Gen.ReferenceIdeal
import proofs.«169630_j15659450761902_1_alg».proof.Proof.Gen.Pre_finite_inputs
import proofs.«169630_j15659450761902_1_alg».proof.Proof.Gen.KernelIdeal.Value
import proofs.«169630_j15659450761902_1_alg».proof.Proof.Gen.ReferenceIdeal.Run
import proofs.«169630_j15659450761902_1_alg».proof.Proof.Gen.ReferenceIdeal.Read
import proofs.«169630_j15659450761902_1_alg».proof.Proof.KernelScore
import proofs.«169630_j15659450761902_1_alg».proof.Proof.RefScore
import Idealize.ShloMosaic.Adequacy
import Idealize.ShloMosaic.Init

noncomputable section

namespace Cert.Proof

open Idealize.ShloMosaic Idealize.ShloMosaic.TcCoe Idealize.SL.Sem

/-- The kernel as printed runs to the end with its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on `x` and the prototypes, the kernel's result array and the reference's both end at the
    score of those two arrays. -/
theorem algebraic : Cert.algebraic_KernelIdeal_ReferenceIdeal := by
  intro m ρ m' ρ' _ hagree
  refine ⟨fun c => Cert.ProtoScore.score (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Score.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
